-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 55
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x256, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S8192x256, .bf16⟩
  | .hbm, ⟨44, _⟩ => ⟨S8192x256, .bf16⟩
  | .hbm, ⟨45, _⟩ => ⟨S8192x1, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32 : BitVec 32 := 1024#32
  let v6 : BitVec 32 := Scalar.muli arg4 c1024_i32
  v6
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c1024_i32 : BitVec 32 := 1024#32
  let v6 : BitVec 32 := Scalar.muli arg4 c1024_i32
  let v7 : BitVec 32 := v6
  let v8 : Index := Scalar.indexCast v7
  let c0_4 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8192x256_S8192_d1 : S8192x256.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  reducesTo_S8192_S_d0 : S8192.ReducesTo [0] S_
  dot_S1024x256_S1024x256_S1024x1024_1_1_0_0_n_n_wf : DotDims.WF S1024x256 S1024x256 S1024x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v31) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x256, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.ScoreSpec.lean ====
/-
  The score term both programs sum, and the constant one.

  For operand rows `x_p` and `y_q` of 256 entries the term is `exp ⟨x_p, y_q⟩`, the exponential of the inner
  product on the extended reals.  One program multiplies the inner product by the constant one before the
  exponential and the other divides it by the constant one; neither changes any extended real, the infinities
  included.
-/
import Idealize.ShloMosaic.Lib.ValueIdx
import Idealize.ShloMosaic.PureOps.Ideal.Laws
import Idealize.ShloMosaic.PureOps.IdealRules

noncomputable section

namespace Cert.ScoreSpec

open Idealize.ShloMosaic Idealize.ShloMosaic.ValueIdx

/-- The word `0x3F800000` is the number one. -/
theorem one_word : Ideal.ofBits .f32 0x3F800000#32 = 1 := IdealRules.sign_bit.ideal_onePat .f32

/-- Dividing by the word for one changes nothing. -/
theorem div_one_word (x : EReal) : Ideal.div x (Ideal.ofBits .f32 0x3F800000#32) = x := by
  rw [one_word, ← EReal.coe_one, Ideal.div_coe one_ne_zero]
  simp

/-- `exp` of the inner product of row `p` of `x` with row `q` of `y`. -/
def expDot {a b : ℕ} (x : (⟨2, ![a, 256]⟩ : Shape).Idx → EReal) (y : (⟨2, ![b, 256]⟩ : Shape).Idx → EReal)
    (p : Fin a) (q : Fin b) : EReal :=
  Ideal.exp (∑ d : Fin 256, x (ix2 p d) * y (ix2 q d))

end Cert.ScoreSpec

end
-- ==== Proof.RefScores.lean ====
/-
  The reference, read where it meets the kernel.

  The reference's result is an ending — add the two row terms, divide, take the logarithm, negate, average over
  the 8192 rows — applied to its first row term `D1` and to its second row term `D2`.  Row `r` of `D2` is the sum
  over all 8192 rows `j` of `exp ⟨â_r, n̂_j⟩`, where `â` and `n̂` are the row-normalised first and third arguments:
  the reduction starts from zero, the score matrix is the sum of products over the 256 columns, and dividing a
  score by the constant one changes nothing.
-/
import proofs.«126131_j62113817035257_2_alg».proof.Proof.Gen.ReferenceIdeal.Read
import proofs.«126131_j62113817035257_2_alg».proof.Proof.ScoreSpec

noncomputable section

namespace Cert.ReferenceIdeal.Scores

open Cert.ReferenceIdeal Cert.ReferenceIdeal.Gen Cert.ReferenceIdeal.Read Idealize.ShloMosaic Idealize.ShloMosaic.ValueIdx Cert.ScoreSpec

/-- The ending both programs share: from the two row terms to the mean of `-log (D1 / (D1 + D2))`. -/
def ending (d1 d2 : (⟨S8192, .f32⟩ : BufTy).Contents (Elt Ideal)) : (⟨S_, .f32⟩ : BufTy).Contents (Elt Ideal) :=
  Host.divf (F := Ideal)
    (Host.reduceAdd (F := Ideal) (Host.negf (F := Ideal) (Host.log (F := Ideal) (Host.divf (F := Ideal) d1 (addf (F := Ideal) d1 d2))))
      (constant (F := Ideal) S_ .f32 0x00000000#32) reducesTo_S8192_S_d0 h_S_)
    (constant (F := Ideal) S_ .f32 0x46000000#32)

/-- The reference's result is the ending of its two row terms. -/
theorem result_eq_ending (x0 x1 x2 : (⟨S8192x256, .f32⟩ : BufTy).Contents (Elt Ideal)) :
    val_main_v41 (F := Ideal) x0 x1 x2 = ending (val_main_v14 (F := Ideal) x0 x1) (val_main_v35 (F := Ideal) x0 x2) := rfl

/-- Row `r` of the reference's second row term: the sum over all rows `j` of `exp ⟨â_r, n̂_j⟩`. -/
theorem d2_apply (x0 x2 : (⟨S8192x256, .f32⟩ : BufTy).Contents (Elt Ideal)) (r : Fin 8192) :
    val_main_v35 (F := Ideal) x0 x2 (ix1 r)
      = ∑ j : Fin 8192, expDot (a := 8192) (b := 8192) (val_main_v22 (F := Ideal) x0) (val_main_v30 (F := Ideal) x2) r j := by
  rw [val_main_v35_apply]
  have hz : (val_main_cst_9 (F := Ideal)) (Shape.Idx.first h_S_) = 0 := Ideal.ofBits_zero_f32
  rw [hz, zero_add]
  refine Finset.sum_congr rfl fun j _ => ?_
  rw [val_main_v34_apply, val_main_v33_apply, val_main_v31_apply, val_main_v32_apply, val_main_cst_8_apply]
  simp only [Ideal.hostUnary_exp_def, Ideal.hostDivf_def, Ideal.ofBits_def]
  rw [div_one_word]
  unfold expDot
  refine congrArg Ideal.exp (Finset.sum_congr rfl fun d _ => ?_)
  have el : lidx_main_v31 (idx_main_v35 (ix1 r) j) d = ix2 r d :=
    funext fun a => Fin.ext (by match a with | ⟨0, _⟩ => rfl | ⟨1, _⟩ => rfl)
  have er : ridx_main_v31 (idx_main_v35 (ix1 r) j) d = ix2 j d :=
    funext fun a => Fin.ext (by match a with | ⟨0, _⟩ => rfl | ⟨1, _⟩ => rfl)
  rw [el, er]

end Cert.ReferenceIdeal.Scores

end
-- ==== Proof.AccBlock.lean ====
/-
  What the body leaves in its output block, as a function of its two input blocks.

  The body keeps a column accumulator of 1024 entries.  It starts at zero; step `k` (of 8) loads rows
  `[1024 k, 1024 k + 1024)` of the second operand and adds to entry `p` the sum over those rows `q` of
  `exp ⟨row p of the first operand, row q⟩`; after the last step the accumulator is stored as the whole
  block.  Here the stored block is identified with that recursion, at any reading of the floats: nothing of
  the arithmetic is opened yet, only the order in which the steps follow one another.
-/
import proofs.«126131_j62113817035257_2_alg».proof.Proof.Gen.KernelIdeal.Frame
import Idealize.ShloMosaic.Lib.Pipeline.Value

set_option maxRecDepth 16384

noncomputable section

namespace Cert.KernelIdeal.Block

open Cert.KernelIdeal Cert.KernelIdeal.Gen
open Idealize.ShloMosaic Idealize.ShloMosaic.TcCoe Idealize.ShloMosaic.Tactic Idealize.SL.Sem

variable {F : FTy → Type} [FloatOps F]

/-- The zero offsets of a whole-block access, spelt as the constant function. -/
theorem zero_off : (![0, 0] : Fin 2 → ℕ) = fun _ => 0 := by
  funext a; match a with | ⟨0, _⟩ => rfl | ⟨1, _⟩ => rfl

/-- Rows `[1024 k, 1024 k + 1024)` of the second operand: what step `k` loads. -/
def chunk (x1 : Vec F S8192x256 .bf16) (k : Fin k0_t1_loop.trips) : Vec F S1024x256 .bf16 :=
  View.ld (Val := Elt F) x1 (Rect.unit (s := S8192x256) (k0_off1 k) S1024x256.size (k0_off1_inb k))

/-- The accumulator before step `k`: zero, then one more chunk's row sums added per step. -/
def accAt (x0 : Vec F S1024x256 .bf16) (x1 : Vec F S8192x256 .bf16) : ℕ → FVec F S1024x1 .f32
  | 0 => k0_pay1
  | k + 1 => if h : k < k0_t1_loop.trips then k0_pay2 x0 (accAt x0 x1 k) (chunk x1 ⟨k, h⟩) else accAt x0 x1 k

/-- The value the loop carries before step `k`, from whole staging buffers holding the two blocks, is the
    accumulator recursion: each step's result is the step's arithmetic of the carried value and the loaded rows. -/
theorem carried_eq (c : Dev nD) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) :
    ∀ k : ℕ, st_k0_t1 (F := F) Variants.none c none i arg1 harg1 arg2 harg2 arg3 harg3 x0 (harg2.unread x1) k0_pay1 k
      = accAt x0 x1 k
  | 0 => rfl
  | k + 1 => by
    rw [st_k0_t1.eq_2, accAt]
    unfold st_k0_t1Step
    by_cases h : k < k0_t1_loop.trips
    · rw [dif_pos h, dif_pos h, carried_eq c i arg1 harg1 arg2 harg2 arg3 harg3 x0 x1 k]
      unfold tripR_k0_t1 trip_k0_t1
      dsimp only
      rw [View.readAt_eq_ld, harg2.read_unread]
      rfl
    · rw [dif_neg h, dif_neg h]
      exact carried_eq c i arg1 harg1 arg2 harg2 arg3 harg3 x0 x1 k

/-- The block the body stores: the accumulator after the last step. -/
theorem out_eq (c : Dev nD) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) :
    out0_A_2 (F := F) c i arg1 harg1 arg2 harg2 arg3 harg3 x0 x1 = accAt x0 x1 k0_t1_loop.trips := by
  unfold out0_A_2
  rw [View.read_writes_eq_canon _ _ _ (cover0_A_2 c i arg1 harg1 arg2 harg2 arg3 harg3 x0 x1)]
  unfold kernelRun0_A
  dsimp only
  rw [View.canon_unit_zero (S := S1024x1) zero_off]
  rw [View.readAt_eq_ld, harg1.read_unread, View.ld_unit_zero (S := S1024x256) zero_off]
  exact carried_eq c i arg1 harg1 arg2 harg2 arg3 harg3 x0 x1 _

end Cert.KernelIdeal.Block

end
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.StepValue.lean ====
/-
  One step of the accumulator on the extended reals, entry by entry.

  At the exact reading of the floats a step computes the 1024 × 1024 block of inner products of the rows of the
  first operand's block with the 1024 loaded rows (a sum over the 256 columns, the product unit starting from a
  zero accumulator), multiplies each by the constant one, exponentiates, sums along each row of the block, and
  adds the column of row sums to the carried column.  So entry `p` gains `∑ q, exp ⟨x_p, y_q⟩`: multiplying by
  one changes no extended real, and the row sum starts from zero.
-/
import proofs.«126131_j62113817035257_2_alg».proof.Proof.Gen.KernelIdeal.Skeleton
import proofs.«126131_j62113817035257_2_alg».proof.Proof.LibColumnForms
import proofs.«126131_j62113817035257_2_alg».proof.Proof.ScoreSpec
import Idealize.ShloMosaic.Lib.ValueIdx
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx Cert.ScoreSpec

/-- The product unit's block at `(p, q)`, from a zero accumulator: the inner product of row `p` with row `q`
    (both operands contract their second axis). -/
theorem matmul_at (x y : FVec Ideal S1024x256 .bf16) (p q : Fin 1024) :
    matmul (F := Ideal) dot_S1024x256_S1024x256_S1024x1024_1_1_0_0_n_n none x y (constant S1024x1024 .f32 0x00000000#32) (ix2 p q)
      = ∑ d : Fin 256, x (ix2 p d) * y (ix2 q d) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun a => Fin.ext (by
    match a with
    | ⟨0, _⟩ =>
      show (dot_S1024x256_S1024x256_S1024x1024_1_1_0_0_n_n.lhsIdx (ix2 p q) _ 0).val = p.val
      unfold DotDims.lhsIdx
      rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
      rfl
    | ⟨1, _⟩ => exact (dot_S1024x256_S1024x256_S1024x1024_1_1_0_0_n_n.lhsIdx_val_of_single rfl _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun a => Fin.ext (by
    match a with
    | ⟨0, _⟩ =>
      show (dot_S1024x256_S1024x256_S1024x1024_1_1_0_0_n_n.rhsIdx (ix2 p q) _ 0).val = q.val
      unfold DotDims.rhsIdx
      rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
      rfl
    | ⟨1, _⟩ => exact (dot_S1024x256_S1024x256_S1024x1024_1_1_0_0_n_n.rhsIdx_val_of_single rfl _ _).trans hk)
  rw [el, er]

/-- A row sum of a 1024 × 1024 block from the zero word, at row `p`: the sum of the row's entries. -/
theorem rowsum_at (src : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p) = ∑ q : Fin 1024, src (ix2 p q) := by
  refine (Ideal.multiReduction_add_single src 0x00000000#32 h hφ hacc (ix1 p)).trans ?_
  refine Finset.sum_congr rfl fun q _ => congrArg src ?_
  funext a
  match a with
  | ⟨0, _⟩ => rfl
  | ⟨1, _⟩ => rfl

/-- The accumulator starts at zero. -/
theorem pay1_apply (y : S1024x1.Idx) : k0_pay1 (F := Ideal) y = 0 := by
  unfold k0_pay1
  show Ideal.ofBits .f32 0x00000000#32 = 0
  exact Ideal.ofBits_zero_f32

/-- One step at entry `p`: the carried entry plus the sum over the loaded rows `q` of `exp ⟨x_p, y_q⟩`. -/
theorem pay2_apply (v0 v9 : FVec Ideal S1024x256 .bf16) (acc : FVec Ideal S1024x1 .f32) (p : Fin 1024) (u : Fin 1) :
    k0_pay2 (F := Ideal) v0 acc v9 (ix2 p u) = acc (ix2 p u) + ∑ q : Fin 1024, expDot v0 v9 p q := by
  unfold k0_pay2
  dsimp only
  rw [addf_apply]
  refine congrArg (acc (ix2 p u) + ·) ?_
  refine (Cert.ColumnForms.shapeCast_a_a1_apply _ _ p u).trans ?_
  refine (rowsum_at _ _ _ _ p).trans ?_
  refine Finset.sum_congr rfl fun q _ => ?_
  show Ideal.exp (mulf (F := Ideal) _ _ (ix2 p q)) = _
  rw [mulf_apply, broadcast_apply, shapeCast_self, shapeCast_self, matmul_at]
  show Ideal.exp (_ * Ideal.ofBits .f32 0x3F800000#32) = _
  rw [one_word, mul_one]
  rfl

end Cert.KernelIdeal.Step

end
-- ==== Proof.ChunkSum.lean ====
/-
  Regrouping a long sum into consecutive chunks.

  A sum of `c * n` terms taken in one pass equals the same terms taken as `c` consecutive
  chunks of `n` and added up chunk by chunk: position `q` of chunk `k` is position
  `q + n * k` of the long range.  The statement lives in any additive commutative monoid,
  so it holds of the extended reals with no finiteness assumption: only associativity and
  commutativity of `+` are used.
-/
import Mathlib.Algebra.BigOperators.Fin
import Mathlib.Logic.Equiv.Fin.Basic

namespace Cert.ChunkSum

open Finset

/-- Position `q` of chunk `k` in the long range: `q + n * k`. -/
def pos (c n : ℕ) (k : Fin c) (q : Fin n) : Fin (c * n) := finProdFinEquiv (k, q)

theorem pos_val (c n : ℕ) (k : Fin c) (q : Fin n) : (pos c n k q).val = q.val + n * k.val := rfl

/-- A sum over `c * n` consecutive positions is the sum over the `c` chunks of the sum
    inside each chunk. -/
theorem sum_chunks {M : Type*} [AddCommMonoid M] (c n : ℕ) (f : Fin (c * n) → M) :
    ∑ j : Fin (c * n), f j = ∑ k : Fin c, ∑ q : Fin n, f (pos c n k q) := by
  rw [← Finset.sum_product', Finset.univ_product_univ]
  exact (Fintype.sum_equiv finProdFinEquiv (fun x => f (pos c n x.1 x.2)) f (fun _ => rfl)).symm

end Cert.ChunkSum
-- ==== Proof.RowSums.lean ====
/-
  The stored block on the extended reals: entry `p` is `∑ j, exp ⟨x_p, y_j⟩` over ALL 8192 rows `j` of the second
  operand.

  Step `k` adds the rows `1024 k + q`, `q < 1024`; the accumulator starts at zero; so after the eight steps entry
  `p` holds the sum over `k` of the sum over `q`, which is the single sum over the 8192 rows regrouped into eight
  consecutive chunks.  Only associativity and commutativity of the extended reals' addition are used.
-/
import proofs.«126131_j62113817035257_2_alg».proof.Proof.AccBlock
import proofs.«126131_j62113817035257_2_alg».proof.Proof.StepValue
import proofs.«126131_j62113817035257_2_alg».proof.Proof.ChunkSum

noncomputable section

namespace Cert.KernelIdeal.Block

open Cert.KernelIdeal Cert.KernelIdeal.Gen Idealize.ShloMosaic Idealize.ShloMosaic.ValueIdx
open Cert.KernelIdeal.Step Cert.ScoreSpec

/-- The loop makes eight steps. -/
theorem trips_eq : k0_t1_loop.trips = 8 := by decide

/-- Row `q` of the rows step `k` loads is row `1024 k + q` of the operand. -/
def rowOf (k : Fin k0_t1_loop.trips) (q : Fin 1024) : Fin 8192 :=
  ⟨1024 * k.val + q.val, by have := k.isLt; have := trips_eq; omega⟩

/-- The loaded rows at an index. -/
theorem chunk_apply (x1 : FVec Ideal S8192x256 .bf16) (k : Fin k0_t1_loop.trips) (q : Fin 1024) (d : Fin 256) :
    chunk (F := Ideal) x1 k (ix2 q d) = x1 (ix2 (rowOf k q) d) := by
  unfold chunk
  show x1 ((Rect.unit (s := S8192x256) (k0_off1 k) S1024x256.size (k0_off1_inb k)).idx (ix2 q d)) = _
  refine congrArg x1 (funext fun a => Fin.ext ?_)
  match a with
  | ⟨0, _⟩ =>
    show k0_off1 k 0 + 1 * q.val = 1024 * k.val + q.val
    rw [k0_off1_eq]
    show 1024 * k.val + 1 * q.val = _
    omega
  | ⟨1, _⟩ =>
    show k0_off1 k 1 + 1 * d.val = d.val
    rw [k0_off1_eq]
    show 0 + 1 * d.val = _
    omega

/-- What step `k` adds to entry `p` (nothing past the last step). -/
def gain (x0 : FVec Ideal S1024x256 .bf16) (x1 : FVec Ideal S8192x256 .bf16) (p : Fin 1024) (k : ℕ) : EReal :=
  if h : k < k0_t1_loop.trips then ∑ q : Fin 1024, expDot x0 x1 p (rowOf ⟨k, h⟩ q) else 0

/-- Before step `k` entry `p` holds the gains of the steps before `k`. -/
theorem accAt_apply (x0 : FVec Ideal S1024x256 .bf16) (x1 : FVec Ideal S8192x256 .bf16) (p : Fin 1024) (u : Fin 1) :
    ∀ k : ℕ, accAt (F := Ideal) x0 x1 k (ix2 p u) = ∑ kk ∈ Finset.range k, gain x0 x1 p kk
  | 0 => by
    rw [accAt, Finset.sum_range_zero]
    exact pay1_apply _
  | k + 1 => by
    rw [accAt, Finset.sum_range_succ, ← accAt_apply x0 x1 p u k]
    unfold gain
    by_cases h : k < k0_t1_loop.trips
    · rw [dif_pos h, dif_pos h, pay2_apply]
      refine congrArg (accAt (F := Ideal) x0 x1 k (ix2 p u) + ·) (Finset.sum_congr rfl fun q _ => ?_)
      unfold expDot
      simp only [chunk_apply]
    · rw [dif_neg h, dif_neg h, add_zero]

/-- After the last step entry `p` holds the one sum over all rows of the second operand. -/
theorem block_apply (x0 : FVec Ideal S1024x256 .bf16) (x1 : FVec Ideal S8192x256 .bf16) (p : Fin 1024) (u : Fin 1) :
    accAt (F := Ideal) x0 x1 k0_t1_loop.trips (ix2 p u) = ∑ j : Fin 8192, expDot x0 x1 p j := by
  rw [accAt_apply, Finset.sum_range]
  refine Eq.trans ?_ (Cert.ChunkSum.sum_chunks 8 1024 (fun j : Fin (8 * 1024) => expDot x0 x1 p j)).symm
  refine Fintype.sum_equiv (finCongr trips_eq) _ _ fun k => ?_
  unfold gain
  rw [dif_pos k.isLt]
  refine Finset.sum_congr rfl fun q _ => congrArg (expDot x0 x1 p) (Fin.ext ?_)
  show 1024 * k.val + q.val = q.val + 1024 * k.val
  omega

end Cert.KernelIdeal.Block

end
-- ==== Proof.ScoreArray.lean ====
/-
  The array the region leaves, on the extended reals: a column whose row `r` holds `∑ j, exp ⟨A_r, B_j⟩`, where
  `A` and `B` are the two operand arrays as the region finds them.

  The grid has eight points.  Point `t` reads rows `[1024 t, 1024 t + 1024)` of `A` and the whole of `B`, and
  writes back rows `[1024 t, 1024 t + 1024)` of the column.  What it writes back is the accumulated block, whose
  entry `p` is the sum over all rows of `B` against row `1024 t + p` of `A`: block `t` of ONE column-valued function
  of `A` and `B`.  The eight blocks tile the column (row `r` lies in block `r / 1024`), so the column ends holding
  that function.
-/
import proofs.«126131_j62113817035257_2_alg».proof.Proof.Gen.KernelIdeal.Frame
import proofs.«126131_j62113817035257_2_alg».proof.Proof.RowSums

set_option maxRecDepth 16384

noncomputable section

namespace Cert.KernelIdeal.Score

open Cert.KernelIdeal Cert.KernelIdeal.Gen Idealize.ShloMosaic Idealize.ShloMosaic.TcCoe Idealize.SL.Sem
open Idealize.ShloMosaic.ValueIdx Cert.KernelIdeal.Step Cert.KernelIdeal.Block Cert.ScoreSpec
open Idealize.ShloMosaic.Pipeline (Dat)

variable (m : (ℓ : Loc nD τ sig) → Buf (Elt Ideal) ℓ)

/-- The row of an index of the column. -/
def rowIdx (i : S8192x1.Idx) : Fin 8192 := ⟨(i 0).val, idx2_lt0 i⟩

/-- The column of row sums of exponentiated scores: row `r` holds `∑ j, exp ⟨A_r, B_j⟩`. -/
def expSums (A B : FVec Ideal S8192x256 .bf16) : FVec Ideal S8192x1 .f32 :=
  fun i => ∑ j : Fin 8192, expDot A B (rowIdx i) j

/-- The windows' block indices at point `t`: the first operand and the result move with `t` along the rows, the
    second operand stays at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the column of row sums. -/
theorem flushed_eq (c : Dev nD) (t : Fin cfg0.N) :
    (dats m 0 c).flushed 2 t
      = ((cfg0.win 2).blk t).view.read (Elt Ideal) (expSums (V m c main_v31) (V m c main_v32)) := by
  show (cfg0.win 2).cut (grid0.coords t) ((dats m 0 c).after 2 t) = _
  rw [after0_2]
  unfold outsAt0
  rw [out_eq]
  obtain ⟨e00, e01, e10, e11, e20, e21⟩ := idx_facts t
  funext y
  obtain ⟨p, u, rfl⟩ : ∃ (p : Fin 1024) (u : Fin 1), y = ix2 p u := ⟨y 0, y 1, eq_ix2 y⟩
  show accAt (F := Ideal) (iblk m c 0 t) (iblk m c 1 t) k0_t1_loop.trips (ix2 p u)
    = expSums (V m c main_v31) (V m c main_v32) (((cfg0.win 2).blk t).view.emb (ix2 p u))
  refine (block_apply (iblk m c 0 t) (iblk m c 1 t) p u).trans ?_
  unfold expSums
  refine Finset.sum_congr rfl fun j _ => ?_
  unfold expDot
  refine congrArg Ideal.exp (Finset.sum_congr rfl fun d _ => ?_)
  have h0 : iblk m c 0 t (ix2 p d)
      = V m c main_v31 (ix2 (rowIdx (((cfg0.win 2).blk t).view.emb (ix2 p u))) d) := by
    show V m c main_v31 (((cfg0.win 0).blk t).view.emb (ix2 p d)) = _
    refine congrArg (V m c main_v31) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 256 + 1 * d.val = d.val
      omega
  have h1 : iblk m c 1 t (ix2 j d) = V m c main_v32 (ix2 j d) := by
    show V m c main_v32 (((cfg0.win 1).blk t).view.emb (ix2 j d)) = _
    refine congrArg (V m c main_v32) (funext fun a => Fin.ext ?_)
    match a with
    | ⟨0, _⟩ =>
      show win0_1.index t (0 : Fin 2) * 8192 + 1 * j.val = j.val
      omega
    | ⟨1, _⟩ =>
      show win0_1.index t (1 : Fin 2) * 256 + 1 * d.val = d.val
      omega
  exact congrArg₂ (· * ·) h0 h1

/-- An index of the column is in point `t`'s block iff each coordinate is in the block's range on its axis. -/
theorem mem_blk (t : Fin cfg0.N) (i : S8192x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v33).slice (win0_2.rect t)).set ↔ _
  rw [View.set_slice_whole, Rect.mem_set_unit]
  exact Iff.rfl

/-- Row `r` of the column lies in the block of point `r / 1024`. -/
theorem cover (i : S8192x1.Idx) :
    ∃ t : Fin cfg0.N, (cfg0.win 2).flush t = true ∧ i ∈ ((cfg0.win 2).blk t).view.set := by
  have hi0 : (i 0).val < 8192 := idx2_lt0 i
  have hi1 : (i 1).val < 1 := idx2_lt1 i
  have hN : cfg0.N = 8 := N_0
  have ht : (i 0).val / 1024 < cfg0.N := by rw [hN]; omega
  obtain ⟨-, -, -, -, e20, e21⟩ := idx_facts ⟨(i 0).val / 1024, ht⟩
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e20]
    show (i 0).val / 1024 * 1024 ≤ (i 0).val ∧ (i 0).val < (i 0).val / 1024 * 1024 + 1024
    omega
  | ⟨1, _⟩ =>
    show win0_2.index ⟨(i 0).val / 1024, ht⟩ (1 : Fin 2) * 1 ≤ (i 1).val
      ∧ (i 1).val < win0_2.index ⟨(i 0).val / 1024, ht⟩ (1 : Fin 2) * 1 + 1
    omega

/-- The column after the run: the row sums of exponentiated scores of the two operand arrays. -/
theorem final (c : Dev nD) :
    (dats m 0 c).arrAt 2 cfg0.N = expSums (V m c main_v31) (V m c main_v32) :=
  (dats m 0 c).arrAt_eq_of_cover 2 _ (fun t _ => flushed_eq m c t) cover

end Cert.KernelIdeal.Score

end
-- ==== Proof.LibColumnToVector.lean ====
/-
  A COLUMN read back as a vector, at an index given by its coordinate.

  Dropping the `keepdims` axis of a row-wise reduction casts a column of shape `[a, 1]` to a vector of `a` entries.
  Entry `i` of the vector is the column's entry `(i, 0)`: both have row-major position `i`, the unit coordinate
  contributing nothing.  General in the extent and in the element type.
-/
import Idealize.ShloMosaic.Lib.Pipeline.Value
import Idealize.ShloMosaic.Lib.ValueIdx

namespace Cert.ColumnToVector

open Idealize.ShloMosaic Idealize.ShloMosaic.ValueIdx

variable {α : Type}

/-- A column `[a, 1]` cast to a vector of `a` entries reads, at `i`, the column's entry `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.ColumnToVector
-- ==== Proof.KernelResult.lean ====
/-
  The kernel program's result on the extended reals: the shared ending of the SAME two row terms the reference
  computes.

  Before the region the host lines compute, from the three arguments, the first row term `D1` and the two
  row-normalised operands (rounded to a shorter float format, which is the identity on extended reals): these are
  the reference's own stages, line for line.  The region leaves the column of row sums `∑ j, exp ⟨â_r, n̂_j⟩`.  After
  the region the column is read back as a vector and the shared ending is applied to `D1` and to it.  Row `r` of
  that vector is row `r` of the reference's second row term.
-/
import proofs.«126131_j62113817035257_2_alg».proof.Proof.Gen.KernelIdeal.Frame
import proofs.«126131_j62113817035257_2_alg».proof.Proof.Gen.ReferenceIdeal.Read
import proofs.«126131_j62113817035257_2_alg».proof.Proof.RefScores
import proofs.«126131_j62113817035257_2_alg».proof.Proof.ScoreArray
import proofs.«126131_j62113817035257_2_alg».proof.Proof.LibColumnToVector
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Scores (ending)

variable (m : (ℓ : Loc nD τ sig) → Buf (Elt Ideal) ℓ) (ρ : Dev nD → PrngReg)

/-- The region's first operand is the reference's row-normalised first argument. -/
theorem V_lhs (c : Dev nD) :
    (V m c main_v31 : S8192x256.Idx → EReal)
      = Cert.ReferenceIdeal.Read.val_main_v22 (F := Ideal) (m ((c : Thread nD τ).loc main_arg0)) := by
  show StableHlo.after hostOps0 (fun b => m (c, b)) (Proc.devRef .tc main_v31) = _
  after_results_simp
  rfl

/-- The region's second operand is the reference's row-normalised third argument. -/
theorem V_rhs (c : Dev nD) :
    (V m c main_v32 : S8192x256.Idx → EReal)
      = Cert.ReferenceIdeal.Read.val_main_v30 (F := Ideal) (m ((c : Thread nD τ).loc main_arg2)) := by
  show StableHlo.after hostOps0 (fun b => m (c, b)) (Proc.devRef .tc main_v32) = _
  after_results_simp
  rfl

/-- The first row term, computed before the region, is the reference's. -/
theorem V_d1 (c : Dev nD) :
    (V m c main_v14 : S8192.Idx → EReal)
      = Cert.ReferenceIdeal.Read.val_main_v14 (F := Ideal) (m ((c : Thread nD τ).loc main_arg0)) (m ((c : Thread nD τ).loc main_arg1)) := by
  show StableHlo.after hostOps0 (fun b => m (c, b)) (Proc.devRef .tc main_v14) = _
  after_results_simp
  rfl

/-- The lines after the region: the shared ending of the first row term and the region's column read as a vector. -/
theorem after_region (c : Dev nD) :
    Pipeline.afterTail₀ cfgs (dats m) 0 (V0 m) [hostOps1] c main_v40
      = ending (V m c main_v14) (shapeCast S8192 ((dats m 0 c).arrAt 2 cfg0.N) shapeCasts_S8192x1_S8192) := by
  unfold Pipeline.afterTail₀
  show StableHlo.after hostOps1 _ (Proc.devRef .tc main_v40) = _
  after_results
  have e14 : Pipeline.withArrays (cfgs 0).spec c (V0 m c) (fun w => (dats m 0 c).arrAt w (cfgs 0).N) (Proc.devRef .tc main_v14)
      = V m c main_v14 :=
    Pipeline.withArrays_of_ne _ c (V0 m c) _ main_v14 (by exact (by decide : ∀ w, Pipeline.arrRef spec0 w ≠ main_v14))
  have e33 : Pipeline.withArrays (cfgs 0).spec c (V0 m c) (fun w => (dats m 0 c).arrAt w (cfgs 0).N) (Proc.devRef .tc main_v33)
      = (dats m 0 c).arrAt 2 cfg0.N :=
    Pipeline.withArrays_arr spec0 launch0.win.arr_inj c _ _ 2
  rw [e14, e33]
  rfl

/-- The program's result: the ending of the reference's own two row terms of the arguments. -/
theorem result_eq (c : Dev nD) :
    Pipeline.afterTail₀ cfgs (dats m) 0 (V0 m) [hostOps1] c main_v40
      = ending (Cert.ReferenceIdeal.Read.val_main_v14 (F := Ideal) (m ((c : Thread nD τ).loc main_arg0)) (m ((c : Thread nD τ).loc main_arg1)))
          (Cert.ReferenceIdeal.Read.val_main_v35 (F := Ideal) (m ((c : Thread nD τ).loc main_arg0)) (m ((c : Thread nD τ).loc main_arg2))) := by
  rw [after_region, Cert.KernelIdeal.Score.final, V_lhs, V_rhs, V_d1]
  refine congrArg (ending _) ?_
  funext i
  obtain ⟨r, rfl⟩ : ∃ r : Fin 8192, i = ix1 r := ⟨i 0, eq_ix1 i⟩
  rw [Cert.ReferenceIdeal.Scores.d2_apply]
  refine (Cert.ColumnToVector.shapeCast_a1_a_apply _ _ r).trans ?_
  rfl

/-- The run re-posted: the result buffer at the ending of the two row terms, the arguments unchanged. -/
theorem run : θ_run defs (onTc (τ := τ) (main (F := Ideal))) ⟨m, fun _ => 0, ρ⟩ fun r => ∀ c : Dev nD,
      r.2.mem ((c.tc : Thread nD τ).loc main_v40)
        = ending (Cert.ReferenceIdeal.Read.val_main_v14 (F := Ideal) (m ((c : Thread nD τ).loc main_arg0)) (m ((c : Thread nD τ).loc main_arg1)))
            (Cert.ReferenceIdeal.Read.val_main_v35 (F := Ideal) (m ((c : Thread nD τ).loc main_arg0)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v40 (Pipeline.mem_restRefs_of main_v40 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  A contrastive loss over 8192 rows: the kernel program against its reference, on the extended reals.

  Both programs compute, from three 8192 × 256 arguments (anchor, positive, negative), the mean over the rows `r` of
  `-log (D1_r / (D1_r + D2_r))`, where `D1_r = exp (cos (anchor_r, positive_r))` and
  `D2_r = ∑ j, exp ⟨â_r, n̂_j⟩` with `â`, `n̂` the row-normalised anchor and negative.  `D1`, `â` and `n̂` are computed by
  the same host lines in both.  They differ only in `D2`: the reference forms the whole 8192 × 8192 score matrix,
  divides it by the constant one, exponentiates and sums each row from zero; the kernel program walks the rows of
  `â` in eight blocks of 1024 and, for each block, the rows of `n̂` in eight chunks of 1024, multiplying each score by
  the constant one, exponentiating, summing the chunk's 1024 terms from zero and accumulating the eight partial sums
  from zero.  A change of float format is the identity on the extended reals, multiplying or dividing by one changes
  no extended real, and regrouping a finite sum into consecutive chunks uses only associativity and commutativity of
  addition: so the two row terms agree row by row, with no appeal to the finiteness of the inputs.

  The three frame claims are the generated frame certificates (the reference's is its generated run with the result
  dropped); the idealization rewrote nothing, so the fourth claim is `True`.
-/
import proofs.«126131_j62113817035257_2_alg».proof.Defs
import proofs.«126131_j62113817035257_2_alg».proof.Proof.Gen.Kernel
import proofs.«126131_j62113817035257_2_alg».proof.Proof.Gen.Kernel.Skeleton
import proofs.«126131_j62113817035257_2_alg».proof.Proof.Gen.Kernel.Loops
import proofs.«126131_j62113817035257_2_alg».proof.Proof.Gen.Kernel.Launch
import proofs.«126131_j62113817035257_2_alg».proof.Proof.Gen.Kernel.Points
import proofs.«126131_j62113817035257_2_alg».proof.Proof.Gen.Kernel.Frame
import proofs.«126131_j62113817035257_2_alg».proof.Proof.Gen.KernelIdeal
import proofs.«126131_j62113817035257_2_alg».proof.Proof.Gen.KernelIdeal.Skeleton
import proofs.«126131_j62113817035257_2_alg».proof.Proof.Gen.KernelIdeal.Loops
import proofs.«126131_j62113817035257_2_alg».proof.Proof.Gen.KernelIdeal.Launch
import proofs.«126131_j62113817035257_2_alg».proof.Proof.Gen.KernelIdeal.Points
import proofs.«126131_j62113817035257_2_alg».proof.Proof.Gen.KernelIdeal.Frame
import proofs.«126131_j62113817035257_2_alg».proof.Proof.Gen.ReferenceIdeal
import proofs.«126131_j62113817035257_2_alg».proof.Proof.Gen.ReferenceIdeal.Run
import proofs.«126131_j62113817035257_2_alg».proof.Proof.Gen.ReferenceIdeal.Read
import proofs.«126131_j62113817035257_2_alg».proof.Proof.Gen.Pre_finite_inputs
import proofs.«126131_j62113817035257_2_alg».proof.Proof.RefScores
import proofs.«126131_j62113817035257_2_alg».proof.Proof.KernelResult
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both idealized programs end with the same result: the shared
    ending of the reference's two row terms of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.Scores.result_eq_ending,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
